-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x32 : Shape := ⟨2, ![800000, 32]⟩
abbrev S64x32 : Shape := ⟨2, ![64, 32]⟩
abbrev S64 : Shape := ⟨1, ![64]⟩
abbrev S64x64 : Shape := ⟨2, ![64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S64x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_v33

def fn {F : FTy → Type} [FloatOps F] (main_arg0 : FVec F S50000x64 .f32) (main_arg1 : IVec S2x800000 32) (main_arg2 : FVec F S800000x32 .f32) (main_arg3 : FVec F S64x32 .f32) (main_arg4 : FVec F S64 .f32) (main_arg5 : FVec F S64x64 .f32) (main_arg6 : FVec F S64 .f32) (main_arg7 : FVec F S64x64 .f32) (main_arg8 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S64x32 .f32 := Host.absf main_arg3
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S50000x64 : Shape := ⟨2, ![50000, 64]⟩
abbrev S2x800000 : Shape := ⟨2, ![2, 800000]⟩
abbrev S800000x32 : Shape := ⟨2, ![800000, 32]⟩
abbrev S64x32 : Shape := ⟨2, ![64, 32]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S8000x32 : Shape := ⟨2, ![8000, 32]⟩
abbrev S8000x64 : Shape := ⟨2, ![8000, 64]⟩
abbrev S32x64 : Shape := ⟨2, ![32, 64]⟩
abbrev S10000x64 : Shape := ⟨2, ![10000, 64]⟩

abbrev nBuf : Space → Nat
  | .hbm => 31
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x32, .f32⟩
  | .hbm, ⟨3, _⟩ => ⟨S64x32, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .f32⟩
  | .hbm, ⟨22, _⟩ => ⟨S1x64, .f32⟩
  | .hbm, ⟨23, _⟩ => ⟨S800000x64, .f32⟩
  | .hbm, ⟨24, _⟩ => ⟨S_, .f32⟩
  | .hbm, ⟨25, _⟩ => ⟨S50000x64, .f32⟩
  | .hbm, ⟨26, _⟩ => ⟨S800000x1, .i32⟩
  | .hbm, ⟨27, _⟩ => ⟨S50000x64, .f32⟩
  | .hbm, ⟨28, _⟩ => ⟨S1x64, .f32⟩
  | .hbm, ⟨29, _⟩ => ⟨S1x64, .f32⟩
  | .hbm, ⟨30, _⟩ => ⟨S50000x64, .f32⟩
  | .local _ .vmem, ⟨0, _⟩ => ⟨S8000x32, .f32⟩
  | .local _ .vmem, ⟨1, _⟩ => ⟨S8000x32, .f32⟩
  | .local _ .vmem, ⟨2, _⟩ => ⟨S8000x64, .f32⟩
  | .local _ .vmem, ⟨3, _⟩ => ⟨S8000x64, .f32⟩
  | .local _ .vmem, ⟨4, _⟩ => ⟨S64x32, .f32⟩
  | .local _ .vmem, ⟨5, _⟩ => ⟨S1x64, .f32⟩
  | .local _ .vmem, ⟨6, _⟩ => ⟨S8000x64, .f32⟩
  | .local _ .vmem, ⟨7, _⟩ => ⟨S8000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  shapeCasts_S64_S1x64 : S64.ShapeCasts S1x64
  inb_S8000x32_S8000x32_0_0 : ∀ a, (![0, 0] : Fin 2 → Nat) a + S8000x32.size a ≤ S8000x32.size a
  h_S8000x32 : 0 < S8000x32.numel
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  transposes_S64x32_p1_0_S32x64 : S64x32.Transposes [1, 0] S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bcast_S_S50000x64 : S_.BroadcastsInDim S50000x64 (![] : Fin 0 → Fin S50000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  broadcasts_S1x64_S10000x64 : S1x64.Broadcasts S10000x64
  gather_S50000x64_S800000x1_S800000x64_1_0_n_n_0_1_164_wf : GatherDims.WF S50000x64 S800000x1 S800000x64 [1] [0] [] [0] [] 1 ![1, 64]
  dot_S8000x32_S32x64_S8000x64_1_0_0_1_n_n_wf : DotDims.WF S8000x32 S32x64 S8000x64 [1] [0] [0] [1] [] []
  scatter_S50000x64_S800000x1_S800000x64_1_0_0_1_wf : ScatterDims.WF S50000x64 S800000x1 S800000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x32.size a ≤ S800000x32.size a
  hwx0_0 : ∀ i : grid0.Coords, EltTy.bits .f32 = 32 ∨ (Rect.block (s := S800000x32) S8000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .f32 = 32 ∨ (Rect.block (s := S800000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x64.size a ≤ S800000x64.size a
  hwx0_4 : ∀ i : grid0.Coords, EltTy.bits .f32 = 32 ∨ (Rect.block (s := S800000x64) S8000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S50000x64.size a
  hwx1_6 : ∀ i : grid1.Coords, EltTy.bits .f32 = 32 ∨ (Rect.block (s := S50000x64) S10000x64.size (cc1_transform_6 i) (hinb1_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x32_S32x64_S8000x64_1_0_0_1_n_n : DotDims S8000x32 S32x64 S8000x64 where
  lhsContracting := [1]
  rhsContracting := [0]
  lhsNonContracting := [0]
  rhsNonContracting := [1]
  lhsBatch := []
  rhsBatch := []
  wf := dot_S8000x32_S32x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg2) S8000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S8000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x32 : Shape := ⟨2, ![800000, 32]⟩
abbrev S64x32 : Shape := ⟨2, ![64, 32]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S32x64 : Shape := ⟨2, ![32, 64]⟩
abbrev S800000x64 : Shape := ⟨2, ![800000, 64]⟩
abbrev S1x64 : Shape := ⟨2, ![1, 64]⟩
abbrev S_ : Shape := ⟨0, ![]⟩
abbrev S800000x1 : Shape := ⟨2, ![800000, 1]⟩

abbrev nBuf : Space → Nat
  | .hbm => 54
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x32, .f32⟩
  | .hbm, ⟨3, _⟩ => ⟨S64x32, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S32x64, .f32⟩
  | .hbm, ⟨14, _⟩ => ⟨S800000x64, .f32⟩
  | .hbm, ⟨15, _⟩ => ⟨S1x64, .f32⟩
  | .hbm, ⟨16, _⟩ => ⟨S800000x64, .f32⟩
  | .hbm, ⟨17, _⟩ => ⟨S800000x64, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .f32⟩
  | .hbm, ⟨27, _⟩ => ⟨S800000x64, .f32⟩
  | .hbm, ⟨28, _⟩ => ⟨S_, .f32⟩
  | .hbm, ⟨29, _⟩ => ⟨S800000x64, .f32⟩
  | .hbm, ⟨30, _⟩ => ⟨S800000x64, .f32⟩
  | .hbm, ⟨31, _⟩ => ⟨S_, .f32⟩
  | .hbm, ⟨32, _⟩ => ⟨S50000x64, .f32⟩
  | .hbm, ⟨33, _⟩ => ⟨S800000x1, .i32⟩
  | .hbm, ⟨34, _⟩ => ⟨S50000x64, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S50000x64, .f32⟩
  | .hbm, ⟨39, _⟩ => ⟨S50000x64, .f32⟩
  | .hbm, ⟨40, _⟩ => ⟨S50000x64, .f32⟩
  | .hbm, ⟨41, _⟩ => ⟨S64x64, .f32⟩
  | .hbm, ⟨42, _⟩ => ⟨S50000x64, .f32⟩
  | .hbm, ⟨43, _⟩ => ⟨S1x64, .f32⟩
  | .hbm, ⟨44, _⟩ => ⟨S50000x64, .f32⟩
  | .hbm, ⟨45, _⟩ => ⟨S50000x64, .f32⟩
  | .hbm, ⟨46, _⟩ => ⟨S_, .f32⟩
  | .hbm, ⟨47, _⟩ => ⟨S50000x64, .f32⟩
  | .hbm, ⟨48, _⟩ => ⟨S50000x64, .f32⟩
  | .hbm, ⟨49, _⟩ => ⟨S64x64, .f32⟩
  | .hbm, ⟨50, _⟩ => ⟨S50000x64, .f32⟩
  | .hbm, ⟨51, _⟩ => ⟨S1x64, .f32⟩
  | .hbm, ⟨52, _⟩ => ⟨S50000x64, .f32⟩
  | .hbm, ⟨53, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_cst : Ref sig .tc := ⟨.hbm, 46, rfl⟩
abbrev main_call1_v0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S64x32_S32x64_1_0 : S64x32.Transposes [1, 0] S32x64
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x64 : S_.BroadcastsInDim S800000x64 (![] : Fin 0 → Fin S800000x64.rank)
  bcast_S_S50000x64 : S_.BroadcastsInDim S50000x64 (![] : Fin 0 → Fin S50000x64.rank)
  transposes_S64x64_S64x64_1_0 : S64x64.Transposes [1, 0] S64x64
  bcast_S1x64_S50000x64_0_1 : S1x64.BroadcastsInDim S50000x64 (![0, 1] : Fin 2 → Fin S50000x64.rank)
  dot_S800000x32_S32x64_S800000x64_1_0_0_1_n_n_wf : DotDims.WF S800000x32 S32x64 S800000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def dot_S800000x32_S32x64_S800000x64_1_0_0_1_n_n : DotDims S800000x32 S32x64 S800000x64 where
  lhsContracting := [1]
  rhsContracting := [0]
  lhsNonContracting := [0]
  rhsNonContracting := [1]
  lhsBatch := []
  rhsBatch := []
  wf := dot_S800000x32_S32x64_S800000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelRun.lean ====
/-
  The idealized kernel program's run, with its result named.

  The program is four stretches in a row: host operations (the two index rows cut out of the edge list, the source
  rows of the node features gathered, the first bias seen as a row), the message kernel over 100 tiles of 8000
  edges, host operations again (the messages scatter-added into their destination nodes, the other two biases seen
  as rows), and the perceptron kernel over 5 tiles of 10000 nodes.  Every weakly fair execution runs through the
  four and ends with every unscoped buffer at the contents the last stretch leaves: the fold of the stretches over
  the launch memory.  Read at the result buffer this is what the perceptron kernel's write-backs leave in its
  output array; read at an argument it is the launch contents, since no stretch writes an argument.
-/
import proofs.«179605_j64707977282153_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer after the last stretch holds what the perceptron kernel's write-backs leave in its output
    array. -/
theorem result_after (c : Dev nD) :
    W4 m ρ c (Proc.devRef .tc main_v18) = (dat1 (V3 m ρ) c).arrAt 6 cfg1.N :=
  W4_arr m ρ c 6

set_option backward.isDefEq.respectTransparency.types false in
/-- Every weakly fair execution of the program terminates, nothing faulting, with the result buffer at the last
    stretch's contents and the argument arrays as launched. -/
theorem run : θ_run defs (onTc (τ := τ) (main (F := F))) ⟨m, fun _ => 0, ρ⟩ (fun r => ∀ c : Dev nD,
      r.2.mem ((c.tc : Thread nD τ).loc main_v18) = W4 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v18 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.RunValue

end
-- ==== Proof.HostStretch.lean ====
/-
  What the kernels find in their operand arrays.

  Before the message kernel the host cuts the two rows of the edge list apart, wraps negative source indices by the
  node count, gathers the source rows of the node features, and views the first bias as a row.  Between the two
  kernels it scatter-adds the messages into their destination nodes, starting from zeros, and views the other two
  biases as rows.  No host operation and no kernel writes an argument array, so an argument read at either kernel's
  entry is the launch contents; an intermediate array is its operation's value of the contents below it.
-/
import proofs.«179605_j64707977282153_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic Idealize.ShloMosaic.StableHlo
open Idealize.SL.Sem
open Idealize.ShloMosaic.Pipeline (Dat Cfg Window)

variable {F : FTy → Type} [FloatOps F]

/-! ## The index columns, as functions of the edge list -/

/-- The edge list's first row (the sources) as a vector of 800000 indices. -/
def sourceRow (x1 : (⟨S2x800000, .i32⟩ : BufTy).Contents (Elt F)) : (⟨S800000, .i32⟩ : BufTy).Contents (Elt F) :=
  shapeCast _ (extractStridedSlice S1x800000 ![0, 0] x1 slices_S2x800000_S1x800000_0_0) shapeCasts_S1x800000_S800000

/-- The edge list's second row (the destinations) as a vector of 800000 indices. -/
def targetRow (x1 : (⟨S2x800000, .i32⟩ : BufTy).Contents (Elt F)) : (⟨S800000, .i32⟩ : BufTy).Contents (Elt F) :=
  shapeCast _ (extractStridedSlice S1x800000 ![1, 0] x1 slices_S2x800000_S1x800000_1_0) shapeCasts_S1x800000_S800000

/-- The source index of each edge as the gather takes it: a negative index wrapped by the node count, as a column. -/
def sourceColumn (x1 : (⟨S2x800000, .i32⟩ : BufTy).Contents (Elt F)) : (⟨S800000x1, .i32⟩ : BufTy).Contents (Elt F) :=
  broadcastInDim S800000x1 ![0] bcast_S800000_S800000x1_0
    (select (cmpi .slt (sourceRow x1) (broadcastInDim S800000 ![] bcast_S_S800000 (constantI S_ 32 0#32)))
      (addi (sourceRow x1) (broadcastInDim S800000 ![] bcast_S_S800000 (constantI S_ 32 50000#32)))
      (sourceRow x1))

/-- The destination index of each edge, as a column. -/
def targetColumn (x1 : (⟨S2x800000, .i32⟩ : BufTy).Contents (Elt F)) : (⟨S800000x1, .i32⟩ : BufTy).Contents (Elt F) :=
  broadcastInDim S800000x1 ![0] bcast_S800000_S800000x1_0 (targetRow x1)

variable (m : (ℓ : Loc nD τ sig) → Buf (Elt F) ℓ) (ρ : Dev nD → PrngReg)

/-! ## At the message kernel's entry -/

theorem entry0_gathered (c : Dev nD) :
    V1 m ρ c main_v10 = Host.gather gather_S50000x64_S800000x1_S800000x64_1_0_n_n_0_1_164
      (m ((c.tc : Thread nD τ).loc main_arg0)) (sourceColumn (m ((c.tc : Thread nD τ).loc main_arg1))) := by
  dsimp only [V1, W1, hostOps0]
  after_results
  rfl

theorem entry0_attributes (c : Dev nD) : V1 m ρ c main_arg2 = m ((c.tc : Thread nD τ).loc main_arg2) := by
  dsimp only [V1, W1, hostOps0]
  after_results

theorem entry0_weights (c : Dev nD) : V1 m ρ c main_arg3 = m ((c.tc : Thread nD τ).loc main_arg3) := by
  dsimp only [V1, W1, hostOps0]
  after_results

theorem entry0_bias (c : Dev nD) :
    V1 m ρ c main_v11 = shapeCast S1x64 (m ((c.tc : Thread nD τ).loc main_arg4)) shapeCasts_S64_S1x64 := by
  dsimp only [V1, W1, hostOps0]
  after_results
  rfl

/-! ## Between the kernels: what the first stretch and the message kernel leave -/

/-- The destination row is computed before the message kernel and no later stretch writes it. -/
theorem mid_targetRow (c : Dev nD) :
    W2 m ρ c (Proc.devRef .tc main_v3) = targetRow (m ((c.tc : Thread nD τ).loc main_arg1)) := by
  rw [W2_of_ne m ρ c main_v3 (by decide)]
  dsimp only [W1, hostOps0]
  after_results
  rfl

theorem mid_arg0 (c : Dev nD) : W2 m ρ c (Proc.devRef .tc main_arg0) = m ((c.tc : Thread nD τ).loc main_arg0) := by
  rw [W2_of_ne m ρ c main_arg0 (by decide)]
  dsimp only [W1, hostOps0]
  after_results

theorem mid_arg5 (c : Dev nD) : W2 m ρ c (Proc.devRef .tc main_arg5) = m ((c.tc : Thread nD τ).loc main_arg5) := by
  rw [W2_of_ne m ρ c main_arg5 (by decide)]
  dsimp only [W1, hostOps0]
  after_results

theorem mid_arg6 (c : Dev nD) : W2 m ρ c (Proc.devRef .tc main_arg6) = m ((c.tc : Thread nD τ).loc main_arg6) := by
  rw [W2_of_ne m ρ c main_arg6 (by decide)]
  dsimp only [W1, hostOps0]
  after_results

theorem mid_arg7 (c : Dev nD) : W2 m ρ c (Proc.devRef .tc main_arg7) = m ((c.tc : Thread nD τ).loc main_arg7) := by
  rw [W2_of_ne m ρ c main_arg7 (by decide)]
  dsimp only [W1, hostOps0]
  after_results

theorem mid_arg8 (c : Dev nD) : W2 m ρ c (Proc.devRef .tc main_arg8) = m ((c.tc : Thread nD τ).loc main_arg8) := by
  rw [W2_of_ne m ρ c main_arg8 (by decide)]
  dsimp only [W1, hostOps0]
  after_results

/-- The message kernel's output array, as the second stretch finds it. -/
theorem mid_messages (c : Dev nD) :
    W2 m ρ c (Proc.devRef .tc main_v12) = (dat0 (V1 m ρ) c).arrAt 4 cfg0.N :=
  W2_arr m ρ c 4

/-! ## At the perceptron kernel's entry -/

theorem entry1_nodes (c : Dev nD) : V3 m ρ c main_arg0 = m ((c.tc : Thread nD τ).loc main_arg0) := by
  dsimp only [V3, W3, hostOps1]
  after_results
  exact mid_arg0 m ρ c

theorem entry1_weights1 (c : Dev nD) : V3 m ρ c main_arg5 = m ((c.tc : Thread nD τ).loc main_arg5) := by
  dsimp only [V3, W3, hostOps1]
  after_results
  exact mid_arg5 m ρ c

theorem entry1_weights2 (c : Dev nD) : V3 m ρ c main_arg7 = m ((c.tc : Thread nD τ).loc main_arg7) := by
  dsimp only [V3, W3, hostOps1]
  after_results
  exact mid_arg7 m ρ c

theorem entry1_bias1 (c : Dev nD) :
    V3 m ρ c main_v16 = shapeCast S1x64 (m ((c.tc : Thread nD τ).loc main_arg6)) shapeCasts_S64_S1x64 := by
  dsimp only [V3, W3, hostOps1]
  after_results
  rw [mid_arg6 m ρ c]
  rfl

theorem entry1_bias2 (c : Dev nD) :
    V3 m ρ c main_v17 = shapeCast S1x64 (m ((c.tc : Thread nD τ).loc main_arg8)) shapeCasts_S64_S1x64 := by
  dsimp only [V3, W3, hostOps1]
  after_results
  rw [mid_arg8 m ρ c]
  rfl

/-- The summed messages: the message kernel's output array scatter-added, from zeros, into the destination nodes. -/
theorem entry1_summed (c : Dev nD) :
    V3 m ρ c main_v15 = Host.scatterAdd scatter_S50000x64_S800000x1_S800000x64_1_0_0_1
      (broadcastInDim S50000x64 ![] bcast_S_S50000x64 (constant S_ .f32 0x00000000#32))
      (targetColumn (m ((c.tc : Thread nD τ).loc main_arg1)))
      ((dat0 (V1 m ρ) c).arrAt 4 cfg0.N) := by
  dsimp only [V3, W3, hostOps1]
  after_results
  rw [mid_targetRow m ρ c, mid_messages m ρ c]
  rfl

end Cert.KernelIdeal.RunValue

end
-- ==== Proof.Spec.lean ====
/-
  The function both programs compute, index by index, on the extended reals.

  A graph layer with edge features.  For edge e with source row gx(e, ·) (the node features gathered at the edge's
  source) and edge attributes ea(e, ·), the MESSAGE is

      msg(e, j) = max( gx(e, j) + ( Σ_{k<32} ea(e, k) · We(j, k) + be(j) ), 0 ),

  a linear map of the attributes (We is stored [64, 32], so the product is against its transpose), a bias, the source
  row added, and a rectifier.  Messages are summed into their destination nodes (that step is one and the same
  scatter-add in both programs and is never opened).  For node r with features x(r, ·) and summed messages agg(r, ·) the
  RESULT is a two-layer perceptron of x + agg:

      hid(r, k) = max( Σ_{k'<64} (x(r, k') + agg(r, k')) · W1(k, k') + b1(k), 0 ),
      out(r, j) = Σ_{k<64} hid(r, k) · W2(j, k) + b2(j).

  Both are stated for an array of T rows, any T: a row's value depends on that row alone (and on the small weight and
  bias arrays), so a tile of rows of the whole array computes the same function of the same rows of its operands —
  which is how a program that walks the rows tile by tile meets one that handles them all at once.  The biases are
  rows [1, 64].  The zero against which the rectifier compares is kept as the value of the f32 zero word.
-/
import Idealize.ShloMosaic.PureOps.Ideal
import Idealize.ShloMosaic.Lib.ValueIdx

noncomputable section

namespace Cert.Gine

open Idealize.ShloMosaic Idealize.ShloMosaic.ValueIdx

/-- The value of the f32 zero word. -/
abbrev zero32 : EReal := Ideal.ofBits .f32 0x00000000#32

/-! ## Messages -/

/-- The message of edge `e` at channel `j`. -/
def messageAt {T : ℕ} (ea : (⟨2, ![T, 32]⟩ : Shape).Idx → EReal) (gx : (⟨2, ![T, 64]⟩ : Shape).Idx → EReal)
    (we : (⟨2, ![64, 32]⟩ : Shape).Idx → EReal) (be : (⟨2, ![1, 64]⟩ : Shape).Idx → EReal) (e : Fin T) (j : Fin 64) : EReal :=
  max (gx (ix2 e j) + ((∑ k : Fin 32, ea (ix2 e k) * we (ix2 j k)) + be (ix2 (0 : Fin 1) j))) zero32

/-- All messages of an array of `T` edges. -/
def messages {T : ℕ} (ea : (⟨2, ![T, 32]⟩ : Shape).Idx → EReal) (gx : (⟨2, ![T, 64]⟩ : Shape).Idx → EReal)
    (we : (⟨2, ![64, 32]⟩ : Shape).Idx → EReal) (be : (⟨2, ![1, 64]⟩ : Shape).Idx → EReal) :
    (⟨2, ![T, 64]⟩ : Shape).Idx → EReal :=
  fun i => messageAt ea gx we be (i 0) (i 1)

theorem messages_ix2 {T : ℕ} (ea : (⟨2, ![T, 32]⟩ : Shape).Idx → EReal) (gx : (⟨2, ![T, 64]⟩ : Shape).Idx → EReal)
    (we : (⟨2, ![64, 32]⟩ : Shape).Idx → EReal) (be : (⟨2, ![1, 64]⟩ : Shape).Idx → EReal) (e : Fin T) (j : Fin 64) :
    messages ea gx we be (ix2 e j) = messageAt ea gx we be e j := rfl

/-- A message depends on its own edge's rows only: if row `p` of a tile holds row `r` of the whole arrays, and the
    weights and the bias are the same, the tile's message at `p` is the whole array's at `r`. -/
theorem messageAt_tile {T N : ℕ} (ea : (⟨2, ![T, 32]⟩ : Shape).Idx → EReal) (gx : (⟨2, ![T, 64]⟩ : Shape).Idx → EReal)
    (we : (⟨2, ![64, 32]⟩ : Shape).Idx → EReal) (be : (⟨2, ![1, 64]⟩ : Shape).Idx → EReal)
    (EA : (⟨2, ![N, 32]⟩ : Shape).Idx → EReal) (GX : (⟨2, ![N, 64]⟩ : Shape).Idx → EReal)
    (WE : (⟨2, ![64, 32]⟩ : Shape).Idx → EReal) (BE : (⟨2, ![1, 64]⟩ : Shape).Idx → EReal)
    (p : Fin T) (r : Fin N) (j : Fin 64)
    (hea : ∀ k : Fin 32, ea (ix2 p k) = EA (ix2 r k)) (hgx : gx (ix2 p j) = GX (ix2 r j))
    (hwe : ∀ k : Fin 32, we (ix2 j k) = WE (ix2 j k)) (hbe : be (ix2 (0 : Fin 1) j) = BE (ix2 (0 : Fin 1) j)) :
    messageAt ea gx we be p j = messageAt EA GX WE BE r j := by
  unfold messageAt
  rw [hgx, hbe]
  simp only [hea, hwe]

/-! ## The perceptron -/

/-- The hidden layer at node `r`, unit `k`. -/
def hiddenAt {T : ℕ} (x agg : (⟨2, ![T, 64]⟩ : Shape).Idx → EReal)
    (w1 : (⟨2, ![64, 64]⟩ : Shape).Idx → EReal) (b1 : (⟨2, ![1, 64]⟩ : Shape).Idx → EReal) (r : Fin T) (k : Fin 64) : EReal :=
  max ((∑ k' : Fin 64, (x (ix2 r k') + agg (ix2 r k')) * w1 (ix2 k k')) + b1 (ix2 (0 : Fin 1) k)) zero32

/-- The result at node `r`, channel `j`. -/
def resultAt {T : ℕ} (x agg : (⟨2, ![T, 64]⟩ : Shape).Idx → EReal)
    (w1 : (⟨2, ![64, 64]⟩ : Shape).Idx → EReal) (b1 : (⟨2, ![1, 64]⟩ : Shape).Idx → EReal)
    (w2 : (⟨2, ![64, 64]⟩ : Shape).Idx → EReal) (b2 : (⟨2, ![1, 64]⟩ : Shape).Idx → EReal) (r : Fin T) (j : Fin 64) : EReal :=
  (∑ k : Fin 64, hiddenAt x agg w1 b1 r k * w2 (ix2 j k)) + b2 (ix2 (0 : Fin 1) j)

/-- The result for an array of `T` nodes. -/
def result {T : ℕ} (x agg : (⟨2, ![T, 64]⟩ : Shape).Idx → EReal)
    (w1 : (⟨2, ![64, 64]⟩ : Shape).Idx → EReal) (b1 : (⟨2, ![1, 64]⟩ : Shape).Idx → EReal)
    (w2 : (⟨2, ![64, 64]⟩ : Shape).Idx → EReal) (b2 : (⟨2, ![1, 64]⟩ : Shape).Idx → EReal) :
    (⟨2, ![T, 64]⟩ : Shape).Idx → EReal :=
  fun i => resultAt x agg w1 b1 w2 b2 (i 0) (i 1)

theorem result_ix2 {T : ℕ} (x agg : (⟨2, ![T, 64]⟩ : Shape).Idx → EReal)
    (w1 : (⟨2, ![64, 64]⟩ : Shape).Idx → EReal) (b1 : (⟨2, ![1, 64]⟩ : Shape).Idx → EReal)
    (w2 : (⟨2, ![64, 64]⟩ : Shape).Idx → EReal) (b2 : (⟨2, ![1, 64]⟩ : Shape).Idx → EReal) (r : Fin T) (j : Fin 64) :
    result x agg w1 b1 w2 b2 (ix2 r j) = resultAt x agg w1 b1 w2 b2 r j := rfl

/-- A node's result depends on its own rows only: if row `p` of a tile holds row `r` of the whole arrays, and the
    weights and biases are the same, the tile's result at `p` is the whole array's at `r`. -/
theorem resultAt_tile {T N : ℕ} (x agg : (⟨2, ![T, 64]⟩ : Shape).Idx → EReal)
    (w1 : (⟨2, ![64, 64]⟩ : Shape).Idx → EReal) (b1 : (⟨2, ![1, 64]⟩ : Shape).Idx → EReal)
    (w2 : (⟨2, ![64, 64]⟩ : Shape).Idx → EReal) (b2 : (⟨2, ![1, 64]⟩ : Shape).Idx → EReal)
    (X AGG : (⟨2, ![N, 64]⟩ : Shape).Idx → EReal)
    (W1 : (⟨2, ![64, 64]⟩ : Shape).Idx → EReal) (B1 : (⟨2, ![1, 64]⟩ : Shape).Idx → EReal)
    (W2 : (⟨2, ![64, 64]⟩ : Shape).Idx → EReal) (B2 : (⟨2, ![1, 64]⟩ : Shape).Idx → EReal)
    (p : Fin T) (r : Fin N) (j : Fin 64)
    (hx : ∀ k : Fin 64, x (ix2 p k) = X (ix2 r k)) (hagg : ∀ k : Fin 64, agg (ix2 p k) = AGG (ix2 r k))
    (hw1 : w1 = W1) (hb1 : b1 = B1) (hw2 : w2 = W2) (hb2 : b2 = B2) :
    resultAt x agg w1 b1 w2 b2 p j = resultAt X AGG W1 B1 W2 B2 r j := by
  subst hw1 hb1 hw2 hb2
  unfold resultAt hiddenAt
  simp only [hx, hagg]

end Cert.Gine

end
-- ==== Proof.MessageArray.lean ====
/-
  The message kernel's output array, whole.

  The kernel walks the 800000 edges in 100 tiles of 8000.  At tile t it loads rows 8000·t … 8000·t + 7999 of the
  edge attributes and of the gathered source rows, the whole weight matrix and the whole bias row, and writes rows
  8000·t … 8000·t + 7999 of the output.  A message depends on its own edge's rows only, so what tile t writes is
  exactly the rows 8000·t … of the messages of the WHOLE arrays; the tiles' row ranges cover every row (row r lies in
  tile r / 8000); hence the output array ends holding the messages of the whole arrays.
-/
import proofs.«179605_j64707977282153_2_alg».proof.Proof.Gen.KernelIdeal.Frame
import proofs.«179605_j64707977282153_2_alg».proof.Proof.Spec
import Idealize.ShloMosaic.Lib.Pipeline.Value
import Idealize.ShloMosaic.Lib.ValueIdx

set_option maxRecDepth 16384

noncomputable section

namespace Cert.KernelIdeal.RunValue

open Cert.KernelIdeal Cert.KernelIdeal.Gen
open Idealize.ShloMosaic Idealize.ShloMosaic.TcCoe Idealize.ShloMosaic.ValueIdx
open Idealize.SL.Sem
open Idealize.ShloMosaic.Pipeline (Dat Cfg Window)

theorem zero_offsets : (![0, 0] : Fin 2 → Nat) = fun _ => 0 := funext fun a => by fin_cases a <;> rfl

/-- The tiles' block indices, decided over the 100 grid points: the two row-tiled inputs move with the output
    along the rows, nothing moves along the columns, and the weights and the bias row stay put. -/
theorem block_indices0 : ∀ t : Fin cfg0.N, win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 99 :=
  (by decide +kernel : ∀ t : Fin grid0.N, _)

/-- Every tile of rows is some grid point's. -/
theorem block_onto0 : ∀ q0 : Fin 100, ∃ t : Fin cfg0.N, win0_4.index t = ![q0.val, 0] :=
  (by decide +kernel : ∀ q0 : Fin 100, ∃ t : Fin grid0.N, win0_4.index t = ![q0.val, 0])

section
variable (V : (c : Dev nD) → (b : Ref sig .tc) → Buf (Elt Ideal) ((c : Thread nD τ).loc b))
variable (hpay : ∀ (x0 : Vec Ideal S8000x32 .f32) (x1 : Vec Ideal S8000x64 .f32) (x2 : Vec Ideal S64x32 .f32) (x3 : Vec Ideal S1x64 .f32)
    (p : Fin 8000) (q : Fin 64), k0_pay1 (F := Ideal) x0 x2 x3 x1 (ix2 p q) = Cert.Gine.messageAt x0 x1 x2 x3 p q)

include hpay in
/-- What tile `t` writes back is rows 8000·t … of the messages of the whole arrays. -/
theorem flushed0_eq (c : Dev nD) (t : Fin cfg0.N) :
    (dat0 (F := Ideal) V c).flushed 4 t = ((cfg0.win 4).blk t).view.read (Elt Ideal)
      (Cert.Gine.messages (V c main_arg2) (V c main_v10) (V c main_arg3) (V c main_v11)) := by
  show (cfg0.win 4).cut (grid0.coords t) ((dat0 V c).after 4 t) = _
  rw [after0_4]
  unfold out0_4
  rw [View.canon_unit_zero zero_offsets]
  simp only [View.ld_unit_zero (S := S8000x32) zero_offsets, View.ld_unit_zero (S := S64x32) zero_offsets,
    View.ld_unit_zero (S := S1x64) zero_offsets, View.ld_unit_zero (S := S8000x64) zero_offsets]
  obtain ⟨e0, e1, e2, e3, e4, e5, e6, e7, e8, e9⟩ := block_indices0 t
  funext y
  obtain ⟨p, q, rfl⟩ : ∃ (p : Fin 8000) (q : Fin 64), y = ix2 p q := ⟨y 0, y 1, eq_ix2 y⟩
  have hr : win0_4.index t (0 : Fin 2) * 8000 + p.val < 800000 := by have := p.isLt; omega
  have hemb : ((cfg0.win 4).blk t).view.emb (ix2 p q)
      = ix2 (⟨win0_4.index t (0 : Fin 2) * 8000 + p.val, hr⟩ : Fin 800000) q := by
    funext a; apply Fin.ext
    match a with
    | ⟨0, _⟩ => show win0_4.index t (0 : Fin 2) * 8000 + 1 * p.val = win0_4.index t (0 : Fin 2) * 8000 + p.val; omega
    | ⟨1, _⟩ => show win0_4.index t (1 : Fin 2) * 64 + 1 * q.val = q.val; omega
  show k0_pay1 (F := Ideal) (iblk0 V c 0 t) (iblk0 V c 2 t) (iblk0 V c 3 t) (iblk0 V c 1 t) (ix2 p q)
      = Cert.Gine.messages (V c main_arg2) (V c main_v10) (V c main_arg3) (V c main_v11)
          (((cfg0.win 4).blk t).view.emb (ix2 p q))
  rw [hemb]
  refine (hpay (iblk0 V c 0 t) (iblk0 V c 1 t) (iblk0 V c 2 t) (iblk0 V c 3 t) p q).trans ?_
  refine Cert.Gine.messageAt_tile (iblk0 V c 0 t) (iblk0 V c 1 t) (iblk0 V c 2 t) (iblk0 V c 3 t)
    (V c main_arg2) (V c main_v10) (V c main_arg3) (V c main_v11) p ⟨_, hr⟩ q (fun k => ?_) ?_ (fun k => ?_) ?_
  · show V c main_arg2 (((cfg0.win 0).blk t).view.emb (ix2 p k)) = V c main_arg2 (ix2 ⟨_, hr⟩ k)
    refine congrArg _ (funext fun a => Fin.ext ?_)
    match a with
    | ⟨0, _⟩ => show win0_0.index t (0 : Fin 2) * 8000 + 1 * p.val = win0_4.index t (0 : Fin 2) * 8000 + p.val; omega
    | ⟨1, _⟩ => show win0_0.index t (1 : Fin 2) * 32 + 1 * k.val = k.val; omega
  · show V c main_v10 (((cfg0.win 1).blk t).view.emb (ix2 p q)) = V c main_v10 (ix2 ⟨_, hr⟩ q)
    refine congrArg _ (funext fun a => Fin.ext ?_)
    match a with
    | ⟨0, _⟩ => show win0_1.index t (0 : Fin 2) * 8000 + 1 * p.val = win0_4.index t (0 : Fin 2) * 8000 + p.val; omega
    | ⟨1, _⟩ => show win0_1.index t (1 : Fin 2) * 64 + 1 * q.val = q.val; omega
  · show V c main_arg3 (((cfg0.win 2).blk t).view.emb (ix2 q k)) = V c main_arg3 (ix2 q k)
    refine congrArg _ (funext fun a => Fin.ext ?_)
    match a with
    | ⟨0, _⟩ => show win0_2.index t (0 : Fin 2) * 64 + 1 * q.val = q.val; omega
    | ⟨1, _⟩ => show win0_2.index t (1 : Fin 2) * 32 + 1 * k.val = k.val; omega
  · show V c main_v11 (((cfg0.win 3).blk t).view.emb (ix2 (0 : Fin 1) q)) = V c main_v11 (ix2 (0 : Fin 1) q)
    refine congrArg _ (funext fun a => Fin.ext ?_)
    match a with
    | ⟨0, _⟩ => show win0_3.index t (0 : Fin 2) * 1 + 1 * (0 : Fin 1).val = (0 : Fin 1).val; omega
    | ⟨1, _⟩ => show win0_3.index t (1 : Fin 2) * 64 + 1 * q.val = q.val; omega

/-- An index of the output array is in tile `t`'s block iff each coordinate is in the block's range on its axis. -/
theorem mem_block0 (t : Fin cfg0.N) (i : S800000x64.Idx) :
    i ∈ ((cfg0.win 4).blk t).view.set ↔ ∀ a : Fin 2, win0_4.index t a * S8000x64.size a ≤ (i a).val ∧ (i a).val < win0_4.index t a * S8000x64.size a + S8000x64.size a := by
  show i ∈ ((View.whole main_v12).slice (win0_4.rect t)).set ↔ _
  rw [View.set_slice_whole, Rect.mem_set_unit]
  exact Iff.rfl

/-- Every row of the output array lies in some tile's block: row r in tile r / 8000. -/
theorem cover0 (i : S800000x64.Idx) :
    ∃ t : Fin cfg0.N, (cfg0.win 4).flush t = true ∧ i ∈ ((cfg0.win 4).blk t).view.set := by
  have hi0 : (i 0).val < 800000 := (i 0).isLt
  have hi1 : (i 1).val < 64 := (i 1).isLt
  obtain ⟨t, ht⟩ := block_onto0 ⟨(i 0).val / 8000, by omega⟩
  have q0 : win0_4.index t (0 : Fin 2) = (i 0).val / 8000 := congrFun ht 0
  have q1 : win0_4.index t (1 : Fin 2) = 0 := congrFun ht 1
  refine ⟨t, flush0_4 t, ?_⟩
  rw [mem_block0]
  intro a
  match a with
  | ⟨0, _⟩ => show win0_4.index t (0 : Fin 2) * 8000 ≤ (i 0).val ∧ (i 0).val < win0_4.index t (0 : Fin 2) * 8000 + 8000; omega
  | ⟨1, _⟩ => show win0_4.index t (1 : Fin 2) * 64 ≤ (i 1).val ∧ (i 1).val < win0_4.index t (1 : Fin 2) * 64 + 64; omega

include hpay in
/-- The message kernel's output array after its run: the messages of the whole operand arrays as the kernel finds
    them. -/
theorem messages_array (c : Dev nD) :
    (dat0 (F := Ideal) V c).arrAt 4 cfg0.N
      = Cert.Gine.messages (V c main_arg2) (V c main_v10) (V c main_arg3) (V c main_v11) :=
  (dat0 (F := Ideal) V c).arrAt_eq_of_cover 4 _ (fun t _ => flushed0_eq V hpay c t) cover0

end

end Cert.KernelIdeal.RunValue

end
-- ==== Proof.PerceptronArray.lean ====
/-
  The perceptron kernel's output array, whole.

  The kernel walks the 50000 nodes in 5 tiles of 10000.  At tile t it loads rows 10000·t … 10000·t + 9999 of the node
  features and of the summed messages, both weight matrices and both bias rows whole, and writes rows 10000·t … of
  the output.  A node's result depends on its own rows only, so what tile t writes is exactly the rows 10000·t … of
  the result of the WHOLE arrays; the tiles' row ranges cover every row (row r lies in tile r / 10000); hence the
  output array ends holding the result of the whole arrays.
-/
import proofs.«179605_j64707977282153_2_alg».proof.Proof.Gen.KernelIdeal.Frame
import proofs.«179605_j64707977282153_2_alg».proof.Proof.Spec
import Idealize.ShloMosaic.Lib.Pipeline.Value
import Idealize.ShloMosaic.Lib.ValueIdx

set_option maxRecDepth 16384

noncomputable section

namespace Cert.KernelIdeal.RunValue

open Cert.KernelIdeal Cert.KernelIdeal.Gen
open Idealize.ShloMosaic Idealize.ShloMosaic.TcCoe Idealize.ShloMosaic.ValueIdx
open Idealize.SL.Sem
open Idealize.ShloMosaic.Pipeline (Dat Cfg Window)

theorem no_offsets : (![0, 0] : Fin 2 → Nat) = fun _ => 0 := funext fun a => by fin_cases a <;> rfl

/-- The tiles' block indices, decided over the 5 grid points: the two row-tiled inputs move with the output along
    the rows, nothing moves along the columns, and the weights and the bias rows stay put. -/
theorem block_indices1 : ∀ t : Fin cfg1.N, win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0 ∧ win1_6.index t (0 : Fin 2) ≤ 4 :=
  (by decide +kernel : ∀ t : Fin grid1.N, _)

/-- Every tile of rows is some grid point's. -/
theorem block_onto1 : ∀ q0 : Fin 5, ∃ t : Fin cfg1.N, win1_6.index t = ![q0.val, 0] :=
  (by decide +kernel : ∀ q0 : Fin 5, ∃ t : Fin grid1.N, win1_6.index t = ![q0.val, 0])

section
variable (V : (c : Dev nD) → (b : Ref sig .tc) → Buf (Elt Ideal) ((c : Thread nD τ).loc b))
variable (hpay : ∀ (x0 x1 : Vec Ideal S10000x64 .f32) (x2 : Vec Ideal S64x64 .f32) (x3 : Vec Ideal S1x64 .f32)
    (x4 : Vec Ideal S64x64 .f32) (x5 : Vec Ideal S1x64 .f32) (p : Fin 10000) (q : Fin 64),
    k1_pay1 (F := Ideal) x0 x1 x2 x3 x4 x5 (ix2 p q) = Cert.Gine.resultAt x0 x1 x2 x3 x4 x5 p q)

/-- A weight matrix's one block is the whole matrix. -/
theorem whole_weights1 (c : Dev nD) (t : Fin cfg1.N) : iblk1 V c 2 t = V c main_arg5 := by
  obtain ⟨e0, e1, e2, e3, e4, e5, e6, e7, e8, e9, e10, e11, e12, e13⟩ := block_indices1 t
  funext y
  show V c main_arg5 (((cfg1.win 2).blk t).view.emb y) = V c main_arg5 y
  refine congrArg _ (funext fun a => Fin.ext ?_)
  match a with
  | ⟨0, _⟩ => show win1_2.index t (0 : Fin 2) * 64 + 1 * (y 0).val = (y 0).val; omega
  | ⟨1, _⟩ => show win1_2.index t (1 : Fin 2) * 64 + 1 * (y 1).val = (y 1).val; omega

theorem whole_weights2 (c : Dev nD) (t : Fin cfg1.N) : iblk1 V c 4 t = V c main_arg7 := by
  obtain ⟨e0, e1, e2, e3, e4, e5, e6, e7, e8, e9, e10, e11, e12, e13⟩ := block_indices1 t
  funext y
  show V c main_arg7 (((cfg1.win 4).blk t).view.emb y) = V c main_arg7 y
  refine congrArg _ (funext fun a => Fin.ext ?_)
  match a with
  | ⟨0, _⟩ => show win1_4.index t (0 : Fin 2) * 64 + 1 * (y 0).val = (y 0).val; omega
  | ⟨1, _⟩ => show win1_4.index t (1 : Fin 2) * 64 + 1 * (y 1).val = (y 1).val; omega

/-- A bias row's one block is the whole row. -/
theorem whole_bias1 (c : Dev nD) (t : Fin cfg1.N) : iblk1 V c 3 t = V c main_v16 := by
  obtain ⟨e0, e1, e2, e3, e4, e5, e6, e7, e8, e9, e10, e11, e12, e13⟩ := block_indices1 t
  funext y
  show V c main_v16 (((cfg1.win 3).blk t).view.emb y) = V c main_v16 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 64 + 1 * (y 1).val = (y 1).val; omega

theorem whole_bias2 (c : Dev nD) (t : Fin cfg1.N) : iblk1 V c 5 t = V c main_v17 := by
  obtain ⟨e0, e1, e2, e3, e4, e5, e6, e7, e8, e9, e10, e11, e12, e13⟩ := block_indices1 t
  funext y
  show V c main_v17 (((cfg1.win 5).blk t).view.emb y) = V c main_v17 y
  refine congrArg _ (funext fun a => Fin.ext ?_)
  match a with
  | ⟨0, _⟩ => show win1_5.index t (0 : Fin 2) * 1 + 1 * (y 0).val = (y 0).val; omega
  | ⟨1, _⟩ => show win1_5.index t (1 : Fin 2) * 64 + 1 * (y 1).val = (y 1).val; omega

include hpay in
/-- What tile `t` writes back is rows 10000·t … of the result of the whole arrays. -/
theorem flushed1_eq (c : Dev nD) (t : Fin cfg1.N) :
    (dat1 (F := Ideal) V c).flushed 6 t = ((cfg1.win 6).blk t).view.read (Elt Ideal)
      (Cert.Gine.result (V c main_arg0) (V c main_v15) (V c main_arg5) (V c main_v16) (V c main_arg7) (V c main_v17)) := by
  show (cfg1.win 6).cut (grid1.coords t) ((dat1 V c).after 6 t) = _
  rw [after1_6]
  unfold out1_6
  rw [View.canon_unit_zero no_offsets]
  simp only [View.ld_unit_zero (S := S10000x64) no_offsets, View.ld_unit_zero (S := S64x64) no_offsets,
    View.ld_unit_zero (S := S1x64) no_offsets]
  obtain ⟨e0, e1, e2, e3, e4, e5, e6, e7, e8, e9, e10, e11, e12, e13⟩ := block_indices1 t
  funext y
  obtain ⟨p, q, rfl⟩ : ∃ (p : Fin 10000) (q : Fin 64), y = ix2 p q := ⟨y 0, y 1, eq_ix2 y⟩
  have hr : win1_6.index t (0 : Fin 2) * 10000 + p.val < 50000 := by have := p.isLt; omega
  have hemb : ((cfg1.win 6).blk t).view.emb (ix2 p q)
      = ix2 (⟨win1_6.index t (0 : Fin 2) * 10000 + p.val, hr⟩ : Fin 50000) q := by
    funext a; apply Fin.ext
    match a with
    | ⟨0, _⟩ => show win1_6.index t (0 : Fin 2) * 10000 + 1 * p.val = win1_6.index t (0 : Fin 2) * 10000 + p.val; omega
    | ⟨1, _⟩ => show win1_6.index t (1 : Fin 2) * 64 + 1 * q.val = q.val; omega
  show k1_pay1 (F := Ideal) (iblk1 V c 0 t) (iblk1 V c 1 t) (iblk1 V c 2 t) (iblk1 V c 3 t) (iblk1 V c 4 t) (iblk1 V c 5 t) (ix2 p q)
      = Cert.Gine.result (V c main_arg0) (V c main_v15) (V c main_arg5) (V c main_v16) (V c main_arg7) (V c main_v17)
          (((cfg1.win 6).blk t).view.emb (ix2 p q))
  rw [hemb]
  refine (hpay (iblk1 V c 0 t) (iblk1 V c 1 t) (iblk1 V c 2 t) (iblk1 V c 3 t) (iblk1 V c 4 t) (iblk1 V c 5 t) p q).trans ?_
  refine Cert.Gine.resultAt_tile (iblk1 V c 0 t) (iblk1 V c 1 t) (iblk1 V c 2 t) (iblk1 V c 3 t) (iblk1 V c 4 t) (iblk1 V c 5 t)
    (V c main_arg0) (V c main_v15) (V c main_arg5) (V c main_v16) (V c main_arg7) (V c main_v17) p ⟨_, hr⟩ q
    (fun k => ?_) (fun k => ?_) (whole_weights1 V c t) (whole_bias1 V c t) (whole_weights2 V c t) (whole_bias2 V c t)
  · show V c main_arg0 (((cfg1.win 0).blk t).view.emb (ix2 p k)) = V c main_arg0 (ix2 ⟨_, hr⟩ k)
    refine congrArg _ (funext fun a => Fin.ext ?_)
    match a with
    | ⟨0, _⟩ => show win1_0.index t (0 : Fin 2) * 10000 + 1 * p.val = win1_6.index t (0 : Fin 2) * 10000 + p.val; omega
    | ⟨1, _⟩ => show win1_0.index t (1 : Fin 2) * 64 + 1 * k.val = k.val; omega
  · show V c main_v15 (((cfg1.win 1).blk t).view.emb (ix2 p k)) = V c main_v15 (ix2 ⟨_, hr⟩ k)
    refine congrArg _ (funext fun a => Fin.ext ?_)
    match a with
    | ⟨0, _⟩ => show win1_1.index t (0 : Fin 2) * 10000 + 1 * p.val = win1_6.index t (0 : Fin 2) * 10000 + p.val; omega
    | ⟨1, _⟩ => show win1_1.index t (1 : Fin 2) * 64 + 1 * k.val = k.val; omega

/-- An index of the output array is in tile `t`'s block iff each coordinate is in the block's range on its axis. -/
theorem mem_block1 (t : Fin cfg1.N) (i : S50000x64.Idx) :
    i ∈ ((cfg1.win 6).blk t).view.set ↔ ∀ a : Fin 2, win1_6.index t a * S10000x64.size a ≤ (i a).val ∧ (i a).val < win1_6.index t a * S10000x64.size a + S10000x64.size a := by
  show i ∈ ((View.whole main_v18).slice (win1_6.rect t)).set ↔ _
  rw [View.set_slice_whole, Rect.mem_set_unit]
  exact Iff.rfl

/-- Every row of the output array lies in some tile's block: row r in tile r / 10000. -/
theorem cover1 (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  obtain ⟨t, ht⟩ := block_onto1 ⟨(i 0).val / 10000, by omega⟩
  have q0 : win1_6.index t (0 : Fin 2) = (i 0).val / 10000 := congrFun ht 0
  have q1 : win1_6.index t (1 : Fin 2) = 0 := congrFun ht 1
  refine ⟨t, flush1_6 t, ?_⟩
  rw [mem_block1]
  intro a
  match a with
  | ⟨0, _⟩ => show win1_6.index t (0 : Fin 2) * 10000 ≤ (i 0).val ∧ (i 0).val < win1_6.index t (0 : Fin 2) * 10000 + 10000; omega
  | ⟨1, _⟩ => show win1_6.index t (1 : Fin 2) * 64 ≤ (i 1).val ∧ (i 1).val < win1_6.index t (1 : Fin 2) * 64 + 64; omega

include hpay in
/-- The perceptron kernel's output array after its run: the result of the whole operand arrays as the kernel finds
    them. -/
theorem result_array (c : Dev nD) :
    (dat1 (F := Ideal) V c).arrAt 6 cfg1.N
      = Cert.Gine.result (V c main_arg0) (V c main_v15) (V c main_arg5) (V c main_v16) (V c main_arg7) (V c main_v17) :=
  (dat1 (F := Ideal) V c).arrAt_eq_of_cover 6 _ (fun t _ => flushed1_eq V hpay c t) cover1

end

end Cert.KernelIdeal.RunValue

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.Payload.lean ====
/-
  Each kernel body's stored value, read at an entry (p, q) at the exact instance (every float an extended real, every
  operation the textbook one), is the specification's function of the loaded blocks.

  Message kernel.  The stored block is  max( gx + ( ea · Weᵀ + be ), 0 ):  the narrowing to bf16 is the identity on
  extended reals; the [64, 32] weights are transposed to [32, 64], so the product into the zero accumulator at (p, q)
  is Σ_{k<32} ea(p, k) · We(q, k); the [1, 64] bias row, cast to its own shape and broadcast along the rows, reads
  be(0, q) at (p, q); the gathered rows are cast to their own shape (the identity); the rectifier compares against the
  value of the zero word, which is kept as that value on both sides.

  Perceptron kernel.  The hidden layer at (p, k) is  max( Σ_{k'<64} (x(p, k') + agg(p, k')) · W1(k, k') + b1(0, k), 0 )
  by the same steps, and the stored block at (p, q) is the second product over the hidden layer,
  Σ_{k<64} hid(p, k) · W2(q, k) + b2(0, q).
-/
import proofs.«179605_j64707977282153_2_alg».proof.Proof.Gen.KernelIdeal.Skeleton
import proofs.«179605_j64707977282153_2_alg».proof.Proof.Spec
import proofs.«179605_j64707977282153_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen

/-! ## The message product's dimension numbers

The first kernel's product contracts the left operand's axis 1 (length 32) with the right operand's axis 0; the left
operand's row index is the output's row index and the right operand's column index is the output's column index. -/

theorem d0_rank : dot_S8000x32_S32x64_S8000x64_1_0_0_1_n_n.contr.rank = 1 := rfl
theorem d0_size : dot_S8000x32_S32x64_S8000x64_1_0_0_1_n_n.contr.size ⟨0, by decide⟩ = 32 := rfl
theorem d0_lc : dot_S8000x32_S32x64_S8000x64_1_0_0_1_n_n.lhsContracting = [1] := rfl
theorem d0_rc : dot_S8000x32_S32x64_S8000x64_1_0_0_1_n_n.rhsContracting = [0] := rfl
theorem d0_L0 (j : S8000x64.Idx) (k : dot_S8000x32_S32x64_S8000x64_1_0_0_1_n_n.contr.Idx) :
    (dot_S8000x32_S32x64_S8000x64_1_0_0_1_n_n.lhsIdx j k 0).val = (j 0).val := by
  unfold DotDims.lhsIdx
  rw [dif_neg (show ¬(0 : Fin S8000x32.rank) ∈ dot_S8000x32_S32x64_S8000x64_1_0_0_1_n_n.lhsBatch by decide), dif_pos (show (0 : Fin S8000x32.rank) ∈ dot_S8000x32_S32x64_S8000x64_1_0_0_1_n_n.lhsNonContracting by decide)]
  rfl
theorem d0_R1 (j : S8000x64.Idx) (k : dot_S8000x32_S32x64_S8000x64_1_0_0_1_n_n.contr.Idx) :
    (dot_S8000x32_S32x64_S8000x64_1_0_0_1_n_n.rhsIdx j k 1).val = (j 1).val := by
  unfold DotDims.rhsIdx
  rw [dif_neg (show ¬(1 : Fin S32x64.rank) ∈ dot_S8000x32_S32x64_S8000x64_1_0_0_1_n_n.rhsBatch by decide), dif_pos (show (1 : Fin S32x64.rank) ∈ dot_S8000x32_S32x64_S8000x64_1_0_0_1_n_n.rhsNonContracting by decide)]
  rfl

/-! ## The message kernel's stored block at an entry -/

set_option maxHeartbeats 400000 in
theorem message_payload (x0 : Vec Ideal S8000x32 .f32) (x1 : Vec Ideal S8000x64 .f32) (x2 : Vec Ideal S64x32 .f32) (x3 : Vec Ideal S1x64 .f32) (p : Fin 8000) (q : Fin 64) :
    Gen.k0_pay1 (F := Ideal) x0 x2 x3 x1 (ix2 p q) = Cert.Gine.messageAt x0 x1 x2 x3 p q := by
  unfold Gen.k0_pay1 Cert.Gine.messageAt
  refine congrArg₂ max ?_ rfl
  refine congrArg₂ (· + ·) (congrFun (shapeCast_self x1 shapeCasts_S8000x64_S8000x64) (ix2 p q)) ?_
  refine congrArg₂ (· + ·) ?_ ?_
  · refine (Cert.LibPlainDot.matmul_zero_apply dot_S8000x32_S32x64_S8000x64_1_0_0_1_n_n d0_rank d0_size d0_lc d0_rc d0_L0 d0_R1
      none (truncf .bf16 x0 bitsLt_bf16_f32)
      (transpose S32x64 [1, 0] (truncf .bf16 x2 bitsLt_bf16_f32) transposes_S64x32_p1_0_S32x64) p q).trans ?_
    refine Finset.sum_congr rfl fun k _ => ?_
    exact congrArg₂ (· * ·) rfl
      (transpose_ix2_apply (truncf .bf16 x2 bitsLt_bf16_f32 : FVec Ideal S64x32 .bf16) transposes_S64x32_p1_0_S32x64 k q)
  · exact (broadcastTo_1b_ab_apply (shapeCast S1x64 x3 shapeCasts_S1x64_S1x64) broadcasts_S1x64_S8000x64 p q).trans
      (congrFun (shapeCast_self x3 shapeCasts_S1x64_S1x64) (ix2 (0 : Fin 1) q))

/-! ## The perceptron products' dimension numbers

Both products of the second kernel use the same dimension numbers: the left operand's axis 1 (length 64) is contracted
with the right operand's axis 0, rows and columns as above. -/

theorem d1_rank : dot_S10000x64_S64x64_S10000x64_1_0_0_1_n_n.contr.rank = 1 := rfl
theorem d1_size : dot_S10000x64_S64x64_S10000x64_1_0_0_1_n_n.contr.size ⟨0, by decide⟩ = 64 := rfl
theorem d1_lc : dot_S10000x64_S64x64_S10000x64_1_0_0_1_n_n.lhsContracting = [1] := rfl
theorem d1_rc : dot_S10000x64_S64x64_S10000x64_1_0_0_1_n_n.rhsContracting = [0] := rfl
theorem d1_L0 (j : S10000x64.Idx) (k : dot_S10000x64_S64x64_S10000x64_1_0_0_1_n_n.contr.Idx) :
    (dot_S10000x64_S64x64_S10000x64_1_0_0_1_n_n.lhsIdx j k 0).val = (j 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem d1_R1 (j : S10000x64.Idx) (k : dot_S10000x64_S64x64_S10000x64_1_0_0_1_n_n.contr.Idx) :
    (dot_S10000x64_S64x64_S10000x64_1_0_0_1_n_n.rhsIdx j k 1).val = (j 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-! ## The perceptron kernel's stored block at an entry -/

/-- The hidden layer as the kernel computes it: the two node blocks added, narrowed (the identity), multiplied by the
    transposed first weights into a zero accumulator, the first bias row broadcast along the rows and added, and the
    rectifier against the value of the zero word. -/
abbrev hiddenBlock (x0 x1 : Vec Ideal S10000x64 .f32) (x2 : Vec Ideal S64x64 .f32) (x3 : Vec Ideal S1x64 .f32) :
    FVec Ideal S10000x64 .f32 :=
  maximumf
    (addf
      (matmul dot_S10000x64_S64x64_S10000x64_1_0_0_1_n_n none
        (truncf .bf16 (addf x0 (shapeCast S10000x64 x1 shapeCasts_S10000x64_S10000x64)) bitsLt_bf16_f32)
        (transpose S64x64 [1, 0] (truncf .bf16 x2 bitsLt_bf16_f32) transposes_S64x64_p1_0_S64x64)
        (constant S10000x64 .f32 0x00000000#32))
      (broadcastTo S10000x64 (shapeCast S1x64 x3 shapeCasts_S1x64_S1x64) broadcasts_S1x64_S10000x64))
    (broadcast S10000x64 (Scalar.ofBits .f32 0x00000000#32 : Ideal .f32))

set_option maxHeartbeats 400000 in
/-- The kernel's hidden layer at (p, k) is the specification's. -/
theorem hidden_payload (x0 x1 : Vec Ideal S10000x64 .f32) (x2 : Vec Ideal S64x64 .f32) (x3 : Vec Ideal S1x64 .f32)
    (p : Fin 10000) (k : Fin 64) :
    hiddenBlock x0 x1 x2 x3 (ix2 p k) = Cert.Gine.hiddenAt x0 x1 x2 x3 p k := by
  unfold Cert.Gine.hiddenAt
  refine congrArg₂ max ?_ rfl
  refine congrArg₂ (· + ·) ?_ ?_
  · refine (Cert.LibPlainDot.matmul_zero_apply dot_S10000x64_S64x64_S10000x64_1_0_0_1_n_n d1_rank d1_size d1_lc d1_rc d1_L0 d1_R1
      none (truncf .bf16 (addf x0 (shapeCast S10000x64 x1 shapeCasts_S10000x64_S10000x64)) bitsLt_bf16_f32)
      (transpose S64x64 [1, 0] (truncf .bf16 x2 bitsLt_bf16_f32) transposes_S64x64_p1_0_S64x64) p k).trans ?_
    refine Finset.sum_congr rfl fun k' _ => ?_
    refine congrArg₂ (· * ·) ?_
      (transpose_ix2_apply (truncf .bf16 x2 bitsLt_bf16_f32 : FVec Ideal S64x64 .bf16) transposes_S64x64_p1_0_S64x64 k' k)
    exact congrArg₂ (· + ·) rfl (congrFun (shapeCast_self x1 shapeCasts_S10000x64_S10000x64) (ix2 p k'))
  · exact (broadcastTo_1b_ab_apply (shapeCast S1x64 x3 shapeCasts_S1x64_S1x64) broadcasts_S1x64_S10000x64 p k).trans
      (congrFun (shapeCast_self x3 shapeCasts_S1x64_S1x64) (ix2 (0 : Fin 1) k))

set_option maxHeartbeats 400000 in
theorem result_payload (x0 x1 : Vec Ideal S10000x64 .f32) (x2 : Vec Ideal S64x64 .f32) (x3 : Vec Ideal S1x64 .f32) (x4 : Vec Ideal S64x64 .f32) (x5 : Vec Ideal S1x64 .f32) (p : Fin 10000) (q : Fin 64) :
    Gen.k1_pay1 (F := Ideal) x0 x1 x2 x3 x4 x5 (ix2 p q) = Cert.Gine.resultAt x0 x1 x2 x3 x4 x5 p q := by
  unfold Gen.k1_pay1 Cert.Gine.resultAt
  refine congrArg₂ (· + ·) ?_ ?_
  · refine (Cert.LibPlainDot.matmul_zero_apply dot_S10000x64_S64x64_S10000x64_1_0_0_1_n_n d1_rank d1_size d1_lc d1_rc d1_L0 d1_R1
      none (truncf .bf16 (hiddenBlock x0 x1 x2 x3) bitsLt_bf16_f32)
      (transpose S64x64 [1, 0] (truncf .bf16 x4 bitsLt_bf16_f32) transposes_S64x64_p1_0_S64x64) p q).trans ?_
    refine Finset.sum_congr rfl fun k _ => ?_
    exact congrArg₂ (· * ·) (hidden_payload x0 x1 x2 x3 p k)
      (transpose_ix2_apply (truncf .bf16 x4 bitsLt_bf16_f32 : FVec Ideal S64x64 .bf16) transposes_S64x64_p1_0_S64x64 k q)
  · exact (broadcastTo_1b_ab_apply (shapeCast S1x64 x5 shapeCasts_S1x64_S1x64) broadcasts_S1x64_S10000x64 p q).trans
      (congrFun (shapeCast_self x5 shapeCasts_S1x64_S1x64) (ix2 (0 : Fin 1) q))

end Cert.KernelIdeal.Payload

end
-- ==== Proof.KernelValue.lean ====
/-
  The idealized kernel program's result, as one term of its arguments.

  Reading the run backwards: the result buffer holds what the perceptron kernel leaves in its output array, which is
  the specification's result of the arrays that kernel finds — the node features, the summed messages, the two
  weight matrices and the two biases as rows.  The summed messages are the scatter-add, from zeros and by the edge
  list's second row, of what the message kernel leaves in its output array, which is the specification's messages of
  the arrays THAT kernel finds — the edge attributes, the node features gathered by the edge list's first row, the
  edge weights and the edge bias as a row.  Every one of those arrays is an argument as launched, or a host
  operation's value of arguments.
-/
import proofs.«179605_j64707977282153_2_alg».proof.Proof.KernelRun
import proofs.«179605_j64707977282153_2_alg».proof.Proof.HostStretch
import proofs.«179605_j64707977282153_2_alg».proof.Proof.MessageArray
import proofs.«179605_j64707977282153_2_alg».proof.Proof.PerceptronArray
import proofs.«179605_j64707977282153_2_alg».proof.Proof.Payload

set_option maxRecDepth 16384

noncomputable section

namespace Cert.KernelIdeal.RunValue

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The result buffer after the run, in terms of the launch contents of the arguments. -/
theorem result_value (c : Dev nD) :
    W4 m ρ c (Proc.devRef .tc main_v18)
      = Cert.Gine.result (m ((c.tc : Thread nD τ).loc main_arg0))
          (Host.scatterAdd scatter_S50000x64_S800000x1_S800000x64_1_0_0_1
            (broadcastInDim S50000x64 ![] bcast_S_S50000x64 (constant (F := Ideal) S_ .f32 0x00000000#32))
            (targetColumn (m ((c.tc : Thread nD τ).loc main_arg1)))
            (Cert.Gine.messages (m ((c.tc : Thread nD τ).loc main_arg2))
              (Host.gather gather_S50000x64_S800000x1_S800000x64_1_0_n_n_0_1_164
                (m ((c.tc : Thread nD τ).loc main_arg0)) (sourceColumn (m ((c.tc : Thread nD τ).loc main_arg1))))
              (m ((c.tc : Thread nD τ).loc main_arg3))
              (shapeCast S1x64 (m ((c.tc : Thread nD τ).loc main_arg4)) shapeCasts_S64_S1x64)))
          (m ((c.tc : Thread nD τ).loc main_arg5))
          (shapeCast S1x64 (m ((c.tc : Thread nD τ).loc main_arg6)) shapeCasts_S64_S1x64)
          (m ((c.tc : Thread nD τ).loc main_arg7))
          (shapeCast S1x64 (m ((c.tc : Thread nD τ).loc main_arg8)) shapeCasts_S64_S1x64) := by
  rw [result_after m ρ c, result_array (V3 m ρ) Cert.KernelIdeal.Payload.result_payload c,
    entry1_nodes m ρ c, entry1_summed m ρ c, entry1_weights1 m ρ c, entry1_bias1 m ρ c, entry1_weights2 m ρ c,
    entry1_bias2 m ρ c, messages_array (V1 m ρ) Cert.KernelIdeal.Payload.message_payload c,
    entry0_attributes m ρ c, entry0_gathered m ρ c, entry0_weights m ρ c, entry0_bias m ρ c]

end Cert.KernelIdeal.RunValue

end
-- ==== Proof.RefSide.lean ====
/-
  The reference program, read on the extended reals, computes the specification's functions.

  Two statements.  The stage after the first rectifier is the array of MESSAGES of the edge attributes, the gathered
  source rows, the edge weights and the edge bias row: at edge e and channel j the stage holds
  max( gx(e, j) + ( Σ_k ea(e, k) · We(j, k) + be(j) ), 0 ), the transposed weight array read at (k, j) being We at
  (j, k), and the bias, first a row [1, 64] and then repeated down the rows, read at (e, j) being the row's entry j.
  The last stage is the RESULT of the node features, the summed messages and the two layers' weights and bias rows.
  The only step that is not the reading of an index is the combination (1 + 0) · x + agg of the program against the
  specification's x + agg: the f32 word of one is the real number 1, the zero word is 0, and 1 · x = x for every
  extended real x, infinite ones included.  The gathered rows and the summed messages stay the arrays the two host
  operations produce; nothing about which rows they read or add is used.
-/
import proofs.«179605_j64707977282153_2_alg».proof.Proof.Gen.ReferenceIdeal.Read
import proofs.«179605_j64707977282153_2_alg».proof.Proof.Spec

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-! ## Messages -/

/-- The left operand of the first product at (e, j), k is the attribute array at (e, k). -/
theorem lidx5 (r : Fin 800000) (j : Fin 64) (k : Fin 32) : Read.lidx_main_v5 (ix2 r j) k = ix2 r k :=
  funext fun a => Fin.ext (by match a with | ⟨0, _⟩ => rfl | ⟨1, _⟩ => rfl)

/-- The transposed weights at (k, j) are the weights at (j, k). -/
theorem ridx5 (r : Fin 800000) (j : Fin 64) (k : Fin 32) :
    Read.idx_main_v4 (Read.ridx_main_v5 (ix2 r j) k) = ix2 j k :=
  funext fun a => Fin.ext (by match a with | ⟨0, _⟩ => rfl | ⟨1, _⟩ => rfl)

/-- The repeated bias at (e, j) is the bias row at (0, j). -/
theorem idx7 (r : Fin 800000) (j : Fin 64) : Read.idx_main_v7 (ix2 r j) = ix2 (0 : Fin 1) j :=
  funext fun a => Fin.ext (by match a with | ⟨0, _⟩ => rfl | ⟨1, _⟩ => rfl)

set_option maxHeartbeats 400000 in
theorem messages_eq (x0 : (⟨S50000x64, .f32⟩ : BufTy).Contents (Elt Ideal)) (x1 : (⟨S2x800000, .i32⟩ : BufTy).Contents (Elt Ideal))
    (x2 : (⟨S800000x32, .f32⟩ : BufTy).Contents (Elt Ideal)) (x3 : (⟨S64x32, .f32⟩ : BufTy).Contents (Elt Ideal))
    (x4 : (⟨S64, .f32⟩ : BufTy).Contents (Elt Ideal)) :
    Read.val_main_v17 (F := Ideal) x0 x1 x2 x3 x4
      = Cert.Gine.messages x2 (Read.val_main_v15 (F := Ideal) x0 x1) x3 (Read.val_main_v6 (F := Ideal) x4) := by
  funext i
  obtain ⟨r, j, rfl⟩ : ∃ (r : Fin 800000) (j : Fin 64), i = ix2 r j := ⟨i 0, i 1, eq_ix2 i⟩
  rw [Cert.Gine.messages_ix2, Read.val_main_v17_apply, Read.val_main_v16_apply, Read.val_main_v8_apply,
    Read.val_main_v5_apply, Read.val_main_v7_apply, Read.val_main_call0_v0_apply, Read.val_main_call0_cst_apply]
  simp only [Read.val_main_v4_apply, lidx5, ridx5, idx7]
  unfold Cert.Gine.messageAt
  rfl

/-! ## The result -/

/-- The f32 word of one is the real number 1. -/
theorem ofBits_one_f32 : Ideal.ofBits .f32 0x3F800000#32 = (1 : EReal) := by
  simp [Ideal.ofBits, Ideal.ieee, -EReal.coe_mul]; norm_num

/-- The program's (1 + 0) · x + agg is x + agg: 1 · x = x for every extended real x. -/
theorem combined_at (x0 : (⟨S50000x64, .f32⟩ : BufTy).Contents (Elt Ideal)) (x1 : (⟨S2x800000, .i32⟩ : BufTy).Contents (Elt Ideal))
    (x2 : (⟨S800000x32, .f32⟩ : BufTy).Contents (Elt Ideal)) (x3 : (⟨S64x32, .f32⟩ : BufTy).Contents (Elt Ideal))
    (x4 : (⟨S64, .f32⟩ : BufTy).Contents (Elt Ideal)) (i : S50000x64.Idx) :
    Read.val_main_v24 (F := Ideal) x0 x1 x2 x3 x4 i = x0 i + Read.val_main_v20 (F := Ideal) x0 x1 x2 x3 x4 i := by
  rw [Read.val_main_v24_apply, Read.val_main_v23_apply, Read.val_main_v22_apply, Read.val_main_v21_apply,
    Read.val_main_cst_1_apply, Read.val_main_cst_2_apply]
  simp only [Ideal.addf_def, Ideal.mulf_def, Ideal.ofBits_def]
  rw [ofBits_one_f32, Ideal.ofBits_zero_f32, add_zero, one_mul]

/-- The left operand of the first layer's product at (r, k), k' is the combined array at (r, k'). -/
theorem lidx26 (r : Fin 50000) (k : Fin 64) (k' : Fin 64) : Read.lidx_main_v26 (ix2 r k) k' = ix2 r k' :=
  funext fun a => Fin.ext (by match a with | ⟨0, _⟩ => rfl | ⟨1, _⟩ => rfl)

/-- The transposed first-layer weights at (k', k) are the weights at (k, k'). -/
theorem ridx26 (r : Fin 50000) (k : Fin 64) (k' : Fin 64) :
    Read.idx_main_v25 (Read.ridx_main_v26 (ix2 r k) k') = ix2 k k' :=
  funext fun a => Fin.ext (by match a with | ⟨0, _⟩ => rfl | ⟨1, _⟩ => rfl)

/-- The repeated first bias at (r, k) is the bias row at (0, k). -/
theorem idx28 (r : Fin 50000) (k : Fin 64) : Read.idx_main_v28 (ix2 r k) = ix2 (0 : Fin 1) k :=
  funext fun a => Fin.ext (by match a with | ⟨0, _⟩ => rfl | ⟨1, _⟩ => rfl)

/-- The left operand of the second layer's product at (r, j), k is the hidden array at (r, k). -/
theorem lidx32 (r : Fin 50000) (j : Fin 64) (k : Fin 64) : Read.lidx_main_v32 (ix2 r j) k = ix2 r k :=
  funext fun a => Fin.ext (by match a with | ⟨0, _⟩ => rfl | ⟨1, _⟩ => rfl)

/-- The transposed second-layer weights at (k, j) are the weights at (j, k). -/
theorem ridx32 (r : Fin 50000) (j : Fin 64) (k : Fin 64) :
    Read.idx_main_v31 (Read.ridx_main_v32 (ix2 r j) k) = ix2 j k :=
  funext fun a => Fin.ext (by match a with | ⟨0, _⟩ => rfl | ⟨1, _⟩ => rfl)

/-- The repeated second bias at (r, j) is the bias row at (0, j). -/
theorem idx34 (r : Fin 50000) (j : Fin 64) : Read.idx_main_v34 (ix2 r j) = ix2 (0 : Fin 1) j :=
  funext fun a => Fin.ext (by match a with | ⟨0, _⟩ => rfl | ⟨1, _⟩ => rfl)

set_option maxHeartbeats 400000 in
theorem result_eq (x0 : (⟨S50000x64, .f32⟩ : BufTy).Contents (Elt Ideal)) (x1 : (⟨S2x800000, .i32⟩ : BufTy).Contents (Elt Ideal))
    (x2 : (⟨S800000x32, .f32⟩ : BufTy).Contents (Elt Ideal)) (x3 : (⟨S64x32, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S64x64, .f32⟩ : BufTy).Contents (Elt Ideal))
    (x8 : (⟨S64, .f32⟩ : BufTy).Contents (Elt Ideal)) :
    Read.val_main_v35 (F := Ideal) x0 x1 x2 x3 x4 x5 x6 x7 x8
      = Cert.Gine.result x0 (Read.val_main_v20 (F := Ideal) x0 x1 x2 x3 x4) x5 (Read.val_main_v27 (F := Ideal) x6) x7
          (Read.val_main_v33 (F := Ideal) x8) := by
  funext i
  obtain ⟨r, j, rfl⟩ : ∃ (r : Fin 50000) (j : Fin 64), i = ix2 r j := ⟨i 0, i 1, eq_ix2 i⟩
  rw [Cert.Gine.result_ix2, Read.val_main_v35_apply, Read.val_main_v32_apply, Read.val_main_v34_apply]
  simp only [Read.val_main_v31_apply, lidx32, ridx32, idx34, Read.val_main_v30_apply, Read.val_main_v29_apply,
    Read.val_main_v26_apply, Read.val_main_v28_apply, Read.val_main_call1_v0_apply, Read.val_main_call1_cst_apply,
    Read.val_main_v25_apply, lidx26, ridx26, idx28, combined_at]
  unfold Cert.Gine.resultAt Cert.Gine.hiddenAt
  rfl

end Cert.ReferenceIdeal.RefValue

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.Agreement.lean ====
/-
  The two programs' results are one function of the arguments.

  Both programs gather the source rows of the node features with the same index column (the edge list's first row,
  negatives wrapped by the node count), form the messages, scatter-add them from zeros with the same index column
  (the edge list's second row), and apply the perceptron.  The kernel program views each bias [64] as a row [1, 64] by
  a cast, the reference by a broadcast along the row's second dimension: the same row, since neither moves an
  element.  So the kernel program's composed value — the specification's result of the specification's messages, with
  the gather and the scatter-add in between — is the reference's last stage.
-/
import proofs.«179605_j64707977282153_2_alg».proof.Proof.RefSide
import proofs.«179605_j64707977282153_2_alg».proof.Proof.HostStretch
import proofs.«179605_j64707977282153_2_alg».proof.Proof.LibUnitAxes

noncomputable section

namespace Cert.Agreement

open Idealize.ShloMosaic Idealize.ShloMosaic.TcCoe Idealize.SL.Sem
open Cert.ReferenceIdeal (S50000x64 S2x800000 S800000x32 S64x32 S64 S64x64)

/-- The kernel program's value as one term of the nine argument arrays. -/
def kernelValue (x0 : (⟨S50000x64, .f32⟩ : BufTy).Contents (Elt Ideal)) (x1 : (⟨S2x800000, .i32⟩ : BufTy).Contents (Elt Ideal))
    (x2 : (⟨S800000x32, .f32⟩ : BufTy).Contents (Elt Ideal)) (x3 : (⟨S64x32, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S64x64, .f32⟩ : BufTy).Contents (Elt Ideal))
    (x8 : (⟨S64, .f32⟩ : BufTy).Contents (Elt Ideal)) : (⟨S50000x64, .f32⟩ : BufTy).Contents (Elt Ideal) :=
  Cert.Gine.result x0
    (Host.scatterAdd Cert.KernelIdeal.scatter_S50000x64_S800000x1_S800000x64_1_0_0_1
      (broadcastInDim Cert.KernelIdeal.S50000x64 ![] Cert.KernelIdeal.Facts₀.bcast_S_S50000x64 (constant (F := Ideal) Cert.KernelIdeal.S_ .f32 0x00000000#32))
      (Cert.KernelIdeal.RunValue.targetColumn (F := Ideal) x1)
      (Cert.Gine.messages x2
        (Host.gather Cert.KernelIdeal.gather_S50000x64_S800000x1_S800000x64_1_0_n_n_0_1_164 x0 (Cert.KernelIdeal.RunValue.sourceColumn (F := Ideal) x1))
        x3 (shapeCast Cert.KernelIdeal.S1x64 x4 Cert.KernelIdeal.Facts₀.shapeCasts_S64_S1x64)))
    x5 (shapeCast Cert.KernelIdeal.S1x64 x6 Cert.KernelIdeal.Facts₀.shapeCasts_S64_S1x64)
    x7 (shapeCast Cert.KernelIdeal.S1x64 x8 Cert.KernelIdeal.Facts₀.shapeCasts_S64_S1x64)

/-- A bias seen as a row by a cast is the bias broadcast along the row's second dimension. -/
theorem bias_row (x : (⟨S64, .f32⟩ : BufTy).Contents (Elt Ideal)) :
    shapeCast Cert.KernelIdeal.S1x64 x Cert.KernelIdeal.Facts₀.shapeCasts_S64_S1x64
      = broadcastInDim Cert.ReferenceIdeal.S1x64 ![1] Cert.ReferenceIdeal.Facts₀.bcast_S64_S1x64_1 x :=
  Cert.LibUnitAxes.shapeCast_a_1a_eq_broadcastInDim x _ _

/-- The kernel program's value is the reference's last stage. -/
theorem kernelValue_eq (x0 : (⟨S50000x64, .f32⟩ : BufTy).Contents (Elt Ideal)) (x1 : (⟨S2x800000, .i32⟩ : BufTy).Contents (Elt Ideal))
    (x2 : (⟨S800000x32, .f32⟩ : BufTy).Contents (Elt Ideal)) (x3 : (⟨S64x32, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S64x64, .f32⟩ : BufTy).Contents (Elt Ideal))
    (x8 : (⟨S64, .f32⟩ : BufTy).Contents (Elt Ideal)) :
    kernelValue x0 x1 x2 x3 x4 x5 x6 x7 x8 = Cert.ReferenceIdeal.Read.val_main_v35 (F := Ideal) x0 x1 x2 x3 x4 x5 x6 x7 x8 := by
  rw [Cert.ReferenceIdeal.RefValue.result_eq]
  unfold kernelValue
  rw [bias_row x4, bias_row x6, bias_row x8]
  unfold Cert.ReferenceIdeal.Read.val_main_v20
  rw [Cert.ReferenceIdeal.RefValue.messages_eq]
  rfl

end Cert.Agreement

end
-- ==== Proof.lean ====
/-
  A graph layer with edge features, computed by two tiled kernels, against its plain array-program reference:
  on the extended reals the two compute one function of the nine argument arrays.

  The layer: every edge sends max( x[src] + (attr · Weᵀ + be), 0 ) to its destination node; a node sums what it
  receives, adds its own features, and passes the sum through a two-layer perceptron (W1, b1, rectifier, W2, b2).
  The kernel program gathers the source rows on the host, forms the messages in a kernel over 100 tiles of 8000
  edges, scatter-adds them on the host, and runs the perceptron in a kernel over 5 tiles of 10000 nodes.  The
  reference does the same steps on whole arrays, except that it multiplies the node's own features by 1 + 0 first.

  Why they agree.  A message, and a node's result, depends on its own row of the row-tiled operands only, so each
  kernel's tiles write exactly the rows of the whole-array function, and the tiles cover all rows.  A product into a
  zero accumulator and the host's product are both the plain sum over the contracted index; narrowing to a shorter
  float format is the identity on extended reals; a bias seen as a row by a cast or by a broadcast is the same row;
  the gather and the scatter-add are one and the same host operation on equal operands in both programs; and
  (1 + 0) · x = x for every extended real x, so no finiteness of the inputs is used.
  The three frames are the generated ones (the reference's is its run with the result dropped); the kernel is its own
  idealization, nothing having been rewritten, so that claim is trivial.
-/
import proofs.«179605_j64707977282153_2_alg».proof.Defs
import proofs.«179605_j64707977282153_2_alg».proof.Proof.Gen.Kernel
import proofs.«179605_j64707977282153_2_alg».proof.Proof.Gen.Kernel.Skeleton
import proofs.«179605_j64707977282153_2_alg».proof.Proof.Gen.Kernel.Launch
import proofs.«179605_j64707977282153_2_alg».proof.Proof.Gen.Kernel.Points
import proofs.«179605_j64707977282153_2_alg».proof.Proof.Gen.Kernel.Frame
import proofs.«179605_j64707977282153_2_alg».proof.Proof.Gen.KernelIdeal
import proofs.«179605_j64707977282153_2_alg».proof.Proof.Gen.KernelIdeal.Skeleton
import proofs.«179605_j64707977282153_2_alg».proof.Proof.Gen.KernelIdeal.Launch
import proofs.«179605_j64707977282153_2_alg».proof.Proof.Gen.KernelIdeal.Points
import proofs.«179605_j64707977282153_2_alg».proof.Proof.Gen.KernelIdeal.Frame
import proofs.«179605_j64707977282153_2_alg».proof.Proof.Gen.ReferenceIdeal
import proofs.«179605_j64707977282153_2_alg».proof.Proof.Gen.ReferenceIdeal.Run
import proofs.«179605_j64707977282153_2_alg».proof.Proof.Gen.ReferenceIdeal.Read
import proofs.«179605_j64707977282153_2_alg».proof.Proof.Gen.Pre_finite_inputs
import proofs.«179605_j64707977282153_2_alg».proof.Proof.KernelValue
import proofs.«179605_j64707977282153_2_alg».proof.Proof.Agreement
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel. -/
theorem preserves : Cert.preserves_Kernel_KernelIdeal := trivial

/-- From memories agreeing on the arguments both programs run, and end with the same result: the kernel program's
    result buffer holds its composed value of the arguments, the reference's its last stage of the same arguments,
    and the two are one function. -/
theorem algebraic : Cert.algebraic_KernelIdeal_ReferenceIdeal := by
  intro m ρ m' ρ' _ hagree
  refine ⟨fun c => Cert.KernelIdeal.Gen.W4 m ρ c (Proc.devRef .tc Cert.KernelIdeal.main_v18),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [h0, h1, h2, h3, h4, h5, h6, h7, h8]
  exact ((Cert.ReferenceIdeal.Read.val_main_v35_eq _ _ _ _ _ _ _ _ _).trans
    (Cert.Agreement.kernelValue_eq _ _ _ _ _ _ _ _ _).symm).trans
    (Cert.KernelIdeal.RunValue.result_value m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
